-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S64x32x8192 : Shape := ⟨3, ![64, 32, 8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S64x32x8192 : S_.BroadcastsInDim S64x32x8192 (![] : Fin 0 → Fin S64x32x8192.rank)
  reducesTo_S64x32x8192_S_d0_1_2 : S64x32x8192.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S64x8192 .f32) (main_arg1 : FVec F S64x32x8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S64x32x8192 .f32 := Host.absf main_arg1
  let main_cst_0 : FVec F S_ .f32 := constant S_ .f32 0x7F800000#32
  let main_v5 : FVec F S64x32x8192 .f32 := broadcastInDim S64x32x8192 ![] bcast_S_S64x32x8192 main_cst_0
  let main_v6 : IVec S64x32x8192 1 := cmpf .olt main_v4 main_v5
  let main_c_1 : IVec S_ 1 := constantI S_ 1 1#1
  let main_v7 : IVec S_ 1 := (fun x v => Host.reduce IntOp.andi x v reducesTo_S64x32x8192_S_d0_1_2 h_S_) main_v6 main_c_1
  let main_v8 : IVec S_ 1 := andi main_v3 main_v7
  let main_cst_2 : FVec F S_ .f32 := constant S_ .f32 0x00000000#32
  let main_v9 : FVec F S64x32x8192 .f32 := broadcastInDim S64x32x8192 ![] bcast_S_S64x32x8192 main_cst_2
  let main_v10 : IVec S64x32x8192 1 := cmpf .ogt main_arg1 main_v9
  let main_c_3 : IVec S_ 1 := constantI S_ 1 1#1
  let main_v11 : IVec S_ 1 := (fun x v => Host.reduce IntOp.andi x v reducesTo_S64x32x8192_S_d0_1_2 h_S_) main_v10 main_c_3
  let main_v12 : IVec S_ 1 := andi main_v8 main_v11
  let main_cst_4 : FVec F S_ .f32 := constant S_ .f32 0x3F800000#32
  let main_v13 : FVec F S64x32x8192 .f32 := broadcastInDim S64x32x8192 ![] bcast_S_S64x32x8192 main_cst_4
  let main_v14 : IVec S64x32x8192 1 := cmpf .olt main_arg1 main_v13
  let main_c_5 : IVec S_ 1 := constantI S_ 1 1#1
  let main_v15 : IVec S_ 1 := (fun x v => Host.reduce IntOp.andi x v reducesTo_S64x32x8192_S_d0_1_2 h_S_) main_v14 main_c_5
  fn_part1 (F := F) main_v12 main_v15
-- ==== Kernel.lean ====
abbrev S64x8192 : Shape := ⟨2, ![64, 8192]⟩
abbrev S64x32x8192 : Shape := ⟨3, ![64, 32, 8192]⟩
abbrev S8x8192 : Shape := ⟨2, ![8, 8192]⟩
abbrev S8x32x8192 : Shape := ⟨3, ![8, 32, 8192]⟩
abbrev S8x1x8192 : Shape := ⟨3, ![8, 1, 8192]⟩
abbrev S8x32 : Shape := ⟨2, ![8, 32]⟩
abbrev S8x32x1 : Shape := ⟨3, ![8, 32, 1]⟩

abbrev nBuf : Space → Nat
  | .hbm => 3
  | .vmem => 6
  | .smem => 0
  | _ => 0

abbrev bufTy : (tb : Table) → Fin (tcTables nBuf tb) → BufTy
  | .hbm, ⟨0, _⟩ => ⟨S64x8192, .f32⟩
  | .hbm, ⟨1, _⟩ => ⟨S64x32x8192, .f32⟩
  | .hbm, ⟨2, _⟩ => ⟨S64x8192, .f32⟩
  | .local _ .vmem, ⟨0, _⟩ => ⟨S8x8192, .f32⟩
  | .local _ .vmem, ⟨1, _⟩ => ⟨S8x8192, .f32⟩
  | .local _ .vmem, ⟨2, _⟩ => ⟨S8x32x8192, .f32⟩
  | .local _ .vmem, ⟨3, _⟩ => ⟨S8x32x8192, .f32⟩
  | .local _ .vmem, ⟨4, _⟩ => ⟨S8x8192, .f32⟩
  | .local _ .vmem, ⟨5, _⟩ => ⟨S8x8192, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x32x8192_S8x32x8192_0_0_0 : ∀ a, (![0, 0, 0] : Fin 3 → Nat) a + S8x32x8192.size a ≤ S8x32x8192.size a
  h_S8x32x8192 : 0 < S8x32x8192.numel
  inb_S8x8192_S8x8192_0_0 : ∀ a, (![0, 0] : Fin 2 → Nat) a + S8x8192.size a ≤ S8x8192.size a
  h_S8x8192 : 0 < S8x8192.numel
  shapeCasts_S8x8192_S8x1x8192 : S8x8192.ShapeCasts S8x1x8192
  broadcasts_S8x1x8192_S8x32x8192 : S8x1x8192.Broadcasts S8x32x8192
  reduces_S8x32x8192_S8x32 : S8x32x8192.Reduces [2] S8x32
  shapeCasts_S8x32_S8x32x1 : S8x32.ShapeCasts S8x32x1
  broadcasts_S8x32x1_S8x32x8192 : S8x32x1.Broadcasts S8x32x8192
  reduces_S8x32x8192_S8x8192 : S8x32x8192.Reduces [1] S8x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8192.size a ≤ S64x8192.size a
  hwx0_0 : ∀ i : grid0.Coords, EltTy.bits .f32 = 32 ∨ (Rect.block (s := S64x8192) S8x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x8192.size a ≤ S64x32x8192.size a
  hwx0_1 : ∀ i : grid0.Coords, EltTy.bits .f32 = 32 ∨ (Rect.block (s := S64x32x8192) S8x32x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x8192.size a ≤ S64x8192.size a
  hwx0_2 : ∀ i : grid0.Coords, EltTy.bits .f32 = 32 ∨ (Rect.block (s := S64x8192) S8x8192.size (cc0_transform_2 i) (hinb0_2 i)).WholeWords (EltTy.packing .f32)

variable [Facts₀]

abbrev win0_0 : Pipeline.Window sig grid0 :=
  Pipeline.Window.ofSpec (Memref.whole main_arg0) S8x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x32x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x8192 : Shape := ⟨2, ![64, 8192]⟩
abbrev S64x32x8192 : Shape := ⟨3, ![64, 32, 8192]⟩
abbrev S64x1x8192 : Shape := ⟨3, ![64, 1, 8192]⟩
abbrev S_ : Shape := ⟨0, ![]⟩
abbrev S64x32 : Shape := ⟨2, ![64, 32]⟩
abbrev S64x32x1 : Shape := ⟨3, ![64, 32, 1]⟩

abbrev nBuf : Space → Nat
  | .hbm => 28
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S64x32x8192, .f32⟩
  | .hbm, ⟨2, _⟩ => ⟨S64x32x8192, .f32⟩
  | .hbm, ⟨3, _⟩ => ⟨S64x32x8192, .f32⟩
  | .hbm, ⟨4, _⟩ => ⟨S64x32x8192, .f32⟩
  | .hbm, ⟨5, _⟩ => ⟨S64x32x8192, .f32⟩
  | .hbm, ⟨6, _⟩ => ⟨S64x1x8192, .f32⟩
  | .hbm, ⟨7, _⟩ => ⟨S64x32x8192, .f32⟩
  | .hbm, ⟨8, _⟩ => ⟨S64x32x8192, .f32⟩
  | .hbm, ⟨9, _⟩ => ⟨S_, .f32⟩
  | .hbm, ⟨10, _⟩ => ⟨S64x32x8192, .f32⟩
  | .hbm, ⟨11, _⟩ => ⟨S64x32x8192, .f32⟩
  | .hbm, ⟨12, _⟩ => ⟨S_, .f32⟩
  | .hbm, ⟨13, _⟩ => ⟨S64x32, .f32⟩
  | .hbm, ⟨14, _⟩ => ⟨S_, .f32⟩
  | .hbm, ⟨15, _⟩ => ⟨S64x32, .f32⟩
  | .hbm, ⟨16, _⟩ => ⟨S64x32, .f32⟩
  | .hbm, ⟨17, _⟩ => ⟨S64x32x1, .f32⟩
  | .hbm, ⟨18, _⟩ => ⟨S64x32x8192, .f32⟩
  | .hbm, ⟨19, _⟩ => ⟨S64x32x8192, .f32⟩
  | .hbm, ⟨20, _⟩ => ⟨S64x32x8192, .f32⟩
  | .hbm, ⟨21, _⟩ => ⟨S_, .f32⟩
  | .hbm, ⟨22, _⟩ => ⟨S64x32, .f32⟩
  | .hbm, ⟨23, _⟩ => ⟨S64x32x1, .f32⟩
  | .hbm, ⟨24, _⟩ => ⟨S64x32x8192, .f32⟩
  | .hbm, ⟨25, _⟩ => ⟨S64x32x8192, .f32⟩
  | .hbm, ⟨26, _⟩ => ⟨S_, .f32⟩
  | .hbm, ⟨27, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S64x8192_S64x1x8192_0_2 : S64x8192.BroadcastsInDim S64x1x8192 (![0, 2] : Fin 2 → Fin S64x1x8192.rank)
  bcast_S64x1x8192_S64x32x8192_0_1_2 : S64x1x8192.BroadcastsInDim S64x32x8192 (![0, 1, 2] : Fin 3 → Fin S64x32x8192.rank)
  bcast_S_S64x32x8192 : S_.BroadcastsInDim S64x32x8192 (![] : Fin 0 → Fin S64x32x8192.rank)
  reducesTo_S64x32x8192_S64x32_d2 : S64x32x8192.ReducesTo [2] S64x32
  h_S_ : 0 < S_.numel
  bcast_S_S64x32 : S_.BroadcastsInDim S64x32 (![] : Fin 0 → Fin S64x32.rank)
  bcast_S64x32_S64x32x1_0_1 : S64x32.BroadcastsInDim S64x32x1 (![0, 1] : Fin 2 → Fin S64x32x1.rank)
  bcast_S64x32x1_S64x32x8192_0_1_2 : S64x32x1.BroadcastsInDim S64x32x8192 (![0, 1, 2] : Fin 3 → Fin S64x32x8192.rank)
  reducesTo_S64x32x8192_S64x8192_d1 : S64x32x8192.ReducesTo [1] S64x8192

variable [Facts₀]

class Facts : Prop extends Facts₀ where

variable [Facts]
-- ==== Proof.GumbelLaw.lean ====
/-
  The Gumbel-softmax row law on the extended reals.

  For one batch row, with logits l_d (d over the classes) and uniform draws u_{k,d} (k over the samples), the reference
  forms the noisy logits n_{k,d} = (-log(-log u_{k,d}) + l_d) / (1/2), the softmax of each sample's row
  exp(n_{k,d} - M_k) / Σ_d' exp(n_{k,d'} - M_k) shifted by the row's maximum M_k, and the maximum over the samples k.
  The kernel forms q_{k,d} = (log u_{k,d})², e_d = exp(2 l_d), s_k = Σ_d' e_d' · (1 / q_{k,d'}) and
  e_d / min_k (q_{k,d} · s_k).

  When every l_d is a real number and every u_{k,d} a real number strictly between 0 and 1, the two are one extended
  real. The steps: exp(n_{k,d}) = e_d / q_{k,d}, because exp(-2 log(-log u)) = 1 / (log u)² for 0 < u < 1 (both
  logarithms are taken inside their domains); the shift by M_k cancels between numerator and denominator because
  exp(-M_k) is a positive real; so sample k's softmax entry is e_d / (q_{k,d} · s_k), a positive real; and x ↦ e_d / x
  is antitone on the positive reals, so the largest entry sits at the sample where q_{k,d} · s_k is least. All of this is
  arithmetic of real numbers; the extended reals only carry the two folds' starting values, +∞ for the minimum and -∞ for
  the maximum, which a nonempty family of reals absorbs.
-/
import Idealize.ShloMosaic.PureOps.Ideal.Laws

noncomputable section

namespace Cert.GumbelLaw

open Idealize.ShloMosaic

/-! ## The float patterns the two programs spell -/

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_pinf : Ideal.ofBits .f32 0x7F800000#32 = (⊤ : EReal) := by
  simp [Ideal.ofBits, Ideal.ieee]

theorem ofBits_ninf : Ideal.ofBits .f32 0xFF800000#32 = (⊥ : EReal) := by
  simp [Ideal.ofBits, Ideal.ieee]

variable {κ ι : Type} [Fintype κ] [Fintype ι]

/-! ## The two sides, as functions of one batch row's logits and draws -/

/-- The kernel's entry for class d: e_d / min_k (q_{k,d} · s_k), the minimum folded from +∞. -/
def kernelRow (L : ι → EReal) (U : κ → ι → EReal) (d : ι) : EReal :=
  Ideal.div (Ideal.exp (Ideal.ofBits .f32 0x40000000#32 * L d))
    ((Finset.univ : Finset κ).fold min (Ideal.ofBits .f32 0x7F800000#32) (fun k =>
      (Ideal.log (U k d) * Ideal.log (U k d)) *
        ∑ d' : ι, Ideal.exp (Ideal.ofBits .f32 0x40000000#32 * L d') *
          Ideal.div (Ideal.ofBits .f32 0x3F800000#32) (Ideal.log (U k d') * Ideal.log (U k d'))))

/-- The reference's noisy logit n_{k,d}. -/
def noisy (L : ι → EReal) (U : κ → ι → EReal) (k : κ) (d : ι) : EReal :=
  Ideal.div (-(Ideal.log (-(Ideal.log (U k d)))) + L d) (Ideal.ofBits .f32 0x3F000000#32)

/-- The reference's shift M_k: the maximum of sample k's noisy logits, folded from -∞ (and met with -∞ once more). -/
def rowMax (L : ι → EReal) (U : κ → ι → EReal) (k : κ) : EReal :=
  max (Ideal.ofBits .f32 0xFF800000#32)
    ((Finset.univ : Finset ι).fold max (Ideal.ofBits .f32 0xFF800000#32) (fun d => noisy L U k d))

/-- The reference's entry for class d: the maximum over the samples of the shifted softmax, folded from -∞. -/
def refRow (L : ι → EReal) (U : κ → ι → EReal) (d : ι) : EReal :=
  (Finset.univ : Finset κ).fold max (Ideal.ofBits .f32 0xFF800000#32) (fun k =>
    Ideal.div (Ideal.exp (noisy L U k d - rowMax L U k))
      (Ideal.ofBits .f32 0x00000000#32 + ∑ d' : ι, Ideal.exp (noisy L U k d' - rowMax L U k)))

/-! ## Real numbers inside the extended reals -/

/-- A finite sum of real numbers, taken in the extended reals, is the real sum. -/
theorem coe_sum {α : Type} (s : Finset α) (f : α → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The minimum from +∞ over a family of reals is the family's least member. -/
theorem fold_min_coe (f : κ → ℝ) (k₀ : κ) (h : ∀ k, f k₀ ≤ f k) :
    (Finset.univ : Finset κ).fold min (⊤ : EReal) (fun k => (f k : EReal)) = (f k₀ : EReal) := by
  apply le_antisymm
  · rw [Finset.fold_min_le]; exact Or.inr ⟨k₀, Finset.mem_univ _, le_rfl⟩
  · rw [Finset.le_fold_min]; exact ⟨le_top, fun k _ => EReal.coe_le_coe_iff.2 (h k)⟩

/-- The maximum from -∞ over a family of reals is the family's greatest member. -/
theorem fold_max_coe (f : κ → ℝ) (k₀ : κ) (h : ∀ k, f k ≤ f k₀) :
    (Finset.univ : Finset κ).fold max (⊥ : EReal) (fun k => (f k : EReal)) = (f k₀ : EReal) := by
  apply le_antisymm
  · rw [Finset.fold_max_le]; exact ⟨bot_le, fun k _ => EReal.coe_le_coe_iff.2 (h k)⟩
  · rw [Finset.le_fold_max]; exact Or.inr ⟨k₀, Finset.mem_univ _, le_rfl⟩

/-- The logarithm of a positive real. -/
theorem log_coe_pos {r : ℝ} (h : 0 < r) : Ideal.log (r : EReal) = (Real.log r : EReal) := by
  rw [Ideal.log_coe, if_neg (not_le.2 h)]

/-- A quotient of reals with a nonzero divisor. -/
theorem div_coe_coe (x : ℝ) {y : ℝ} (h : y ≠ 0) : Ideal.div (x : EReal) (y : EReal) = ((x * (1 / y) : ℝ) : EReal) := by
  rw [Ideal.div_coe h, ← EReal.coe_mul]

/-! ## The law over the reals -/

/-- exp of the noisy logit: exp((-log(-log u) + l) / (1/2)) = exp(2 l) · (1 / (log u)²) for 0 < u < 1. -/
theorem exp_noisy {u l : ℝ} (h0 : 0 < u) (h1 : u < 1) :
    Real.exp ((-(Real.log (-(Real.log u))) + l) * (1 / (1 / 2)))
      = Real.exp (2 * l) * (1 / (Real.log u * Real.log u)) := by
  have hlog : Real.log u < 0 := Real.log_neg h0 h1
  have ha : 0 < -Real.log u := neg_pos.2 hlog
  have hne : Real.log u ≠ 0 := ne_of_lt hlog
  have e : (-(Real.log (-(Real.log u))) + l) * (1 / (1 / 2))
      = 2 * l + (-(Real.log (-(Real.log u))) + -(Real.log (-(Real.log u)))) := by ring
  rw [e, Real.exp_add, Real.exp_add, Real.exp_neg, Real.exp_log ha]
  field_simp

/-- One sample's shifted softmax entry is e_d / (q_d · s): the shift cancels. -/
theorem softmax_entry (l u : ι → ℝ) (hu : ∀ d, 0 < u d ∧ u d < 1) (M : ℝ) (d : ι) :
    Real.exp ((-(Real.log (-(Real.log (u d)))) + l d) * (1 / (1 / 2)) - M)
        * (1 / ∑ d' : ι, Real.exp ((-(Real.log (-(Real.log (u d')))) + l d') * (1 / (1 / 2)) - M))
      = Real.exp (2 * l d)
        * (1 / ((Real.log (u d) * Real.log (u d))
            * ∑ d' : ι, Real.exp (2 * l d') * (1 * (1 / (Real.log (u d') * Real.log (u d')))))) := by
  have hw : ∀ d' : ι, Real.exp ((-(Real.log (-(Real.log (u d')))) + l d') * (1 / (1 / 2)) - M)
      = (Real.exp (2 * l d') * (1 * (1 / (Real.log (u d') * Real.log (u d'))))) * Real.exp (-M) := by
    intro d'
    rw [sub_eq_add_neg, Real.exp_add, exp_noisy (hu d').1 (hu d').2, one_mul]
  have hq : ∀ d' : ι, 0 < Real.log (u d') * Real.log (u d') := fun d' =>
    mul_pos_of_neg_of_neg (Real.log_neg (hu d').1 (hu d').2) (Real.log_neg (hu d').1 (hu d').2)
  have hS : 0 < ∑ d' : ι, Real.exp (2 * l d') * (1 * (1 / (Real.log (u d') * Real.log (u d')))) :=
    Finset.sum_pos (fun d' _ => mul_pos (Real.exp_pos _) (by rw [one_mul]; exact one_div_pos.2 (hq d')))
      ⟨d, Finset.mem_univ d⟩
  have hE : Real.exp (-M) ≠ 0 := (Real.exp_pos _).ne'
  simp only [hw]
  rw [← Finset.sum_mul]
  have hqd := (hq d).ne'
  have hS' := hS.ne'
  field_simp

/-! ## Each side's per-sample term is a real number -/

/-- The kernel's q_{k,d} · s_k for one sample's row of draws. -/
theorem kernel_term (l u : ι → ℝ) (hu : ∀ d, 0 < u d ∧ u d < 1) (d : ι) :
    (Ideal.log (u d : EReal) * Ideal.log (u d : EReal)) *
        ∑ d' : ι, Ideal.exp (Ideal.ofBits .f32 0x40000000#32 * (l d' : EReal)) *
          Ideal.div (Ideal.ofBits .f32 0x3F800000#32) (Ideal.log (u d' : EReal) * Ideal.log (u d' : EReal))
      = (((Real.log (u d) * Real.log (u d))
          * ∑ d' : ι, Real.exp (2 * l d') * (1 * (1 / (Real.log (u d') * Real.log (u d')))) : ℝ) : EReal) := by
  have hq : ∀ d' : ι, Real.log (u d') * Real.log (u d') ≠ 0 := fun d' =>
    (mul_pos_of_neg_of_neg (Real.log_neg (hu d').1 (hu d').2) (Real.log_neg (hu d').1 (hu d').2)).ne'
  have hterm : ∀ d' : ι, Ideal.exp (Ideal.ofBits .f32 0x40000000#32 * (l d' : EReal)) *
      Ideal.div (Ideal.ofBits .f32 0x3F800000#32) (Ideal.log (u d' : EReal) * Ideal.log (u d' : EReal))
        = ((Real.exp (2 * l d') * (1 * (1 / (Real.log (u d') * Real.log (u d')))) : ℝ) : EReal) := by
    intro d'
    rw [ofBits_two, ofBits_one, log_coe_pos (hu d').1, ← EReal.coe_mul, ← EReal.coe_mul, Ideal.exp_coe,
      div_coe_coe 1 (hq d'), ← EReal.coe_mul]
  rw [Finset.sum_congr rfl (fun d' _ => hterm d'), coe_sum, log_coe_pos (hu d).1, ← EReal.coe_mul, ← EReal.coe_mul]

/-- The reference's noisy logit is a real number. -/
theorem noisy_coe (l : ι → ℝ) (u : κ → ι → ℝ) (hu : ∀ k d, 0 < u k d ∧ u k d < 1) (k : κ) (d : ι) :
    noisy (fun d => (l d : EReal)) (fun k d => (u k d : EReal)) k d
      = (((-(Real.log (-(Real.log (u k d)))) + l d) * (1 / (1 / 2)) : ℝ) : EReal) := by
  have hlog : Real.log (u k d) < 0 := Real.log_neg (hu k d).1 (hu k d).2
  show Ideal.div (-(Ideal.log (-(Ideal.log ((u k d : ℝ) : EReal)))) + ((l d : ℝ) : EReal))
      (Ideal.ofBits .f32 0x3F000000#32) = _
  rw [log_coe_pos (hu k d).1, ← EReal.coe_neg, log_coe_pos (neg_pos.2 hlog), ← EReal.coe_neg, ← EReal.coe_add,
    ofBits_half, div_coe_coe _ (by norm_num : (1 / 2 : ℝ) ≠ 0)]

/-- The reference's shift is a real number: the row's greatest noisy logit. -/
theorem rowMax_coe [Nonempty ι] (l : ι → ℝ) (u : κ → ι → ℝ) (hu : ∀ k d, 0 < u k d ∧ u k d < 1) (k : κ) :
    ∃ M : ℝ, rowMax (fun d => (l d : EReal)) (fun k d => (u k d : EReal)) k = (M : EReal) := by
  obtain ⟨d₁, _, hd₁⟩ := Finset.exists_max_image (Finset.univ : Finset ι)
    (fun d => (-(Real.log (-(Real.log (u k d)))) + l d) * (1 / (1 / 2))) ⟨Classical.arbitrary ι, Finset.mem_univ _⟩
  refine ⟨(-(Real.log (-(Real.log (u k d₁)))) + l d₁) * (1 / (1 / 2)), ?_⟩
  unfold rowMax
  rw [ofBits_ninf, max_eq_right bot_le,
    show (fun d => noisy (fun d => (l d : EReal)) (fun k d => (u k d : EReal)) k d)
        = fun d => (((-(Real.log (-(Real.log (u k d)))) + l d) * (1 / (1 / 2)) : ℝ) : EReal) from
      funext fun d => noisy_coe l u hu k d]
  exact fold_max_coe _ d₁ (fun d => hd₁ d (Finset.mem_univ d))

/-- The reference's softmax entry of sample k, shifted by a real M, is a real number. -/
theorem ref_term (l : ι → ℝ) (u : κ → ι → ℝ) (hu : ∀ k d, 0 < u k d ∧ u k d < 1) (k : κ) (M : ℝ) (d : ι) :
    Ideal.div (Ideal.exp (noisy (fun d => (l d : EReal)) (fun k d => (u k d : EReal)) k d - (M : EReal)))
      (Ideal.ofBits .f32 0x00000000#32
        + ∑ d' : ι, Ideal.exp (noisy (fun d => (l d : EReal)) (fun k d => (u k d : EReal)) k d' - (M : EReal)))
      = ((Real.exp ((-(Real.log (-(Real.log (u k d)))) + l d) * (1 / (1 / 2)) - M)
          * (1 / ∑ d' : ι, Real.exp ((-(Real.log (-(Real.log (u k d')))) + l d') * (1 / (1 / 2)) - M)) : ℝ) : EReal) := by
  have hterm : ∀ d' : ι, Ideal.exp (noisy (fun d => (l d : EReal)) (fun k d => (u k d : EReal)) k d' - (M : EReal))
      = ((Real.exp ((-(Real.log (-(Real.log (u k d')))) + l d') * (1 / (1 / 2)) - M) : ℝ) : EReal) := by
    intro d'
    rw [noisy_coe l u hu k d', ← EReal.coe_sub, Ideal.exp_coe]
  have hS : (∑ d' : ι, Real.exp ((-(Real.log (-(Real.log (u k d')))) + l d') * (1 / (1 / 2)) - M)) ≠ 0 :=
    (Finset.sum_pos (fun d' _ => Real.exp_pos _) ⟨d, Finset.mem_univ d⟩).ne'
  rw [hterm d, Finset.sum_congr rfl (fun d' _ => hterm d'), coe_sum, Ideal.ofBits_zero_f32, zero_add,
    div_coe_coe _ hS]

/-! ## The law -/

/-- For real logits and real draws strictly between 0 and 1, over a nonempty family of samples, the kernel's entry is
    the reference's. -/
theorem kernelRow_eq_refRow [Nonempty κ] (l : ι → ℝ) (u : κ → ι → ℝ) (hu : ∀ k d, 0 < u k d ∧ u k d < 1) (d : ι) :
    kernelRow (fun d => (l d : EReal)) (fun k d => (u k d : EReal)) d
      = refRow (fun d => (l d : EReal)) (fun k d => (u k d : EReal)) d := by
  haveI : Nonempty ι := ⟨d⟩
  -- q_{k,d} · s_k, a positive real
  let pr : κ → ℝ := fun k => (Real.log (u k d) * Real.log (u k d))
    * ∑ d' : ι, Real.exp (2 * l d') * (1 * (1 / (Real.log (u k d') * Real.log (u k d'))))
  have hq : ∀ (k : κ) (d' : ι), 0 < Real.log (u k d') * Real.log (u k d') := fun k d' =>
    mul_pos_of_neg_of_neg (Real.log_neg (hu k d').1 (hu k d').2) (Real.log_neg (hu k d').1 (hu k d').2)
  have hpr : ∀ k, 0 < pr k := fun k =>
    mul_pos (hq k d) (Finset.sum_pos (fun d' _ => mul_pos (Real.exp_pos _) (by rw [one_mul]; exact one_div_pos.2 (hq k d')))
      ⟨d, Finset.mem_univ d⟩)
  -- the sample where it is least
  obtain ⟨k₀, _, hk₀⟩ := Finset.exists_min_image (Finset.univ : Finset κ) pr ⟨Classical.arbitrary κ, Finset.mem_univ _⟩
  have hmin : ∀ k, pr k₀ ≤ pr k := fun k => hk₀ k (Finset.mem_univ k)
  -- the kernel's side
  have hK : kernelRow (fun d => (l d : EReal)) (fun k d => (u k d : EReal)) d
      = ((Real.exp (2 * l d) * (1 / pr k₀) : ℝ) : EReal) := by
    unfold kernelRow
    rw [show (fun k => (Ideal.log ((fun k d => (u k d : EReal)) k d) * Ideal.log ((fun k d => (u k d : EReal)) k d)) *
          ∑ d' : ι, Ideal.exp (Ideal.ofBits .f32 0x40000000#32 * (fun d => (l d : EReal)) d') *
            Ideal.div (Ideal.ofBits .f32 0x3F800000#32)
              (Ideal.log ((fun k d => (u k d : EReal)) k d') * Ideal.log ((fun k d => (u k d : EReal)) k d')))
        = fun k => ((pr k : ℝ) : EReal) from funext fun k => kernel_term l (u k) (hu k) d,
      ofBits_pinf, fold_min_coe pr k₀ hmin]
    show Ideal.div (Ideal.exp (Ideal.ofBits .f32 0x40000000#32 * ((l d : ℝ) : EReal))) ((pr k₀ : ℝ) : EReal) = _
    rw [ofBits_two, ← EReal.coe_mul, Ideal.exp_coe, div_coe_coe _ (hpr k₀).ne']
  -- the reference's side
  have hM : ∀ k, ∃ M : ℝ, rowMax (fun d => (l d : EReal)) (fun k d => (u k d : EReal)) k = (M : EReal) :=
    fun k => rowMax_coe l u hu k
  choose M hM using hM
  have hR : refRow (fun d => (l d : EReal)) (fun k d => (u k d : EReal)) d
      = ((Real.exp (2 * l d) * (1 / pr k₀) : ℝ) : EReal) := by
    unfold refRow
    rw [show (fun k => Ideal.div
            (Ideal.exp (noisy (fun d => (l d : EReal)) (fun k d => (u k d : EReal)) k d
              - rowMax (fun d => (l d : EReal)) (fun k d => (u k d : EReal)) k))
            (Ideal.ofBits .f32 0x00000000#32
              + ∑ d' : ι, Ideal.exp (noisy (fun d => (l d : EReal)) (fun k d => (u k d : EReal)) k d'
                - rowMax (fun d => (l d : EReal)) (fun k d => (u k d : EReal)) k)))
        = fun k => ((Real.exp (2 * l d) * (1 / pr k) : ℝ) : EReal) from funext fun k => by
          rw [hM k, ref_term l u hu k (M k) d, softmax_entry l (u k) (hu k) (M k) d],
      ofBits_ninf]
    exact fold_max_coe (fun k => Real.exp (2 * l d) * (1 / pr k)) k₀ (fun k =>
      mul_le_mul_of_nonneg_left (one_div_le_one_div_of_le (hpr k₀) (hmin k)) (Real.exp_pos _).le)
  rw [hK, hR]

end Cert.GumbelLaw

end
-- ==== Proof.Domain.lean ====
/-
  What the precondition says of the two argument arrays at the ideal values.

  The precondition is the conjunction of four tests, each over every entry: |logits| < +∞, |draws| < +∞, draws > 0 and
  draws < 1. An extended real whose absolute value max x (-x) is below +∞ is neither infinity, so it is a real number; and
  the two comparisons of a draw are comparisons of that real with 0 and with 1. So every logit is a real number and every
  draw a real number strictly between 0 and 1 — the domain on which both logarithms of the reference are taken of a
  positive number.
-/
import proofs.«135341_g64312840290704_cont_9to1c4b_346_7_alg».proof.Pre_finite_inputs
import proofs.«135341_g64312840290704_cont_9to1c4b_346_7_alg».proof.Proof.GumbelLaw
import Idealize.ShloMosaic.Lib.ReduceAll
import Idealize.ShloMosaic.Lib.ValueIdx
import Idealize.ShloMosaic.Lib.Pipeline.Value

noncomputable section

namespace Cert.Domain

open Idealize.ShloMosaic Cert.Pre_finite_inputs

/-- A rank-0 shape has one index. -/
instance : Subsingleton S_.Idx := ⟨fun _ _ => funext fun d => d.elim0⟩

theorem cmp_olt_iff (x y : EReal) : Ideal.cmp .olt x y = 1#1 ↔ x < y := by
  unfold Ideal.cmp
  by_cases h : x < y <;> simp [h]

theorem cmp_ogt_iff (x y : EReal) : Ideal.cmp .ogt x y = 1#1 ↔ y < x := by
  unfold Ideal.cmp
  by_cases h : y < x <;> simp [h]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [Cert.GumbelLaw.ofBits_pinf, cmp_olt_iff, max_lt_iff] at h
  induction x using EReal.rec with
  | bot => exact absurd h.2 (by rw [EReal.neg_bot]; exact lt_irrefl _)
  | coe r => exact ⟨r, rfl⟩
  | top => exact absurd h.1 (lt_irrefl _)

/-- Under the precondition every logit is a real number and every draw a real number strictly between 0 and 1. -/
theorem of_pre [Cert.Pre_finite_inputs.Facts] (a0 : FVec Ideal S64x8192 .f32) (a1 : FVec Ideal S64x32x8192 .f32)
    (h : Cert.Pre_finite_inputs.fn (F := Ideal) a0 a1 = fun _ => 1#1) :
    (∀ i, ∃ r : ℝ, a0 i = (r : EReal)) ∧ (∀ j, ∃ r : ℝ, a1 j = (r : EReal) ∧ 0 < r ∧ r < 1) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  have bc : ∀ {S : Shape} (hb : S_.BroadcastsInDim S (![] : Fin 0 → Fin S.rank)) (w : BitVec 32) (i : S.Idx),
      broadcastInDim S ![] hb (constant (F := Ideal) S_ .f32 w) i = Ideal.ofBits .f32 w := fun hb w i =>
    broadcastInDim_apply _ hb _ i (fun a => a.elim0) (fun a => a.elim0)
  refine ⟨fun i => ?_, fun j => ?_⟩
  · have e : Ideal.cmp .olt (max (a0 i) (-(a0 i)))
        (broadcastInDim S64x8192 ![] Facts.bcast_S_S64x8192 (constant (F := Ideal) S_ .f32 0x7F800000#32) i) = 1#1 :=
      Host.reduce_andi_all _ _ _ _ _ h1 i
    rw [bc] at e
    exact real_of_abs_lt _ e
  · have e2 : Ideal.cmp .olt (max (a1 j) (-(a1 j)))
        (broadcastInDim S64x32x8192 ![] Facts.bcast_S_S64x32x8192 (constant (F := Ideal) S_ .f32 0x7F800000#32) j) = 1#1 :=
      Host.reduce_andi_all _ _ _ _ _ h2 j
    have e3 : Ideal.cmp .ogt (a1 j)
        (broadcastInDim S64x32x8192 ![] Facts.bcast_S_S64x32x8192 (constant (F := Ideal) S_ .f32 0x00000000#32) j) = 1#1 :=
      Host.reduce_andi_all _ _ _ _ _ h3 j
    have e4 : Ideal.cmp .olt (a1 j)
        (broadcastInDim S64x32x8192 ![] Facts.bcast_S_S64x32x8192 (constant (F := Ideal) S_ .f32 0x3F800000#32) j) = 1#1 :=
      Host.reduce_andi_all _ _ _ _ _ h4 j
    rw [bc] at e2 e3 e4
    obtain ⟨r, hr⟩ := real_of_abs_lt _ e2
    rw [cmp_ogt_iff, Ideal.ofBits_zero_f32, hr, EReal.coe_pos] at e3
    rw [cmp_olt_iff, Cert.GumbelLaw.ofBits_one, hr, EReal.coe_lt_coe_iff] at e4
    exact ⟨r, hr, e3, e4⟩

end Cert.Domain

end
-- ==== Proof.LibMergeAxes.lean ====
/-
  Three-axis arrays re-laid and reduced, read at an index (program-independent; imports only the library).

  An array [a, b, c] viewed as the matrix [n, c] with n = a * b has row p * b + q equal to row (p, q) of the array, and
  the matrix viewed back as the array likewise: the two indices sit at one row-major position. A matrix [a, b] given a
  trailing unit axis, [a, b, 1], reads (p, q) at (p, q, 0). An array with a unit axis broadcast along that axis reads
  the same entry whatever the coordinate on it — for each of the three axes. At the ideal values a sum along the last
  axis is the sum over that axis's coordinates, and a maximum along it the fold of max over them.
-/
import Idealize.ShloMosaic.Lib.ValueIdx
import Idealize.ShloMosaic.Lib.Pipeline.Value
import Idealize.ShloMosaic.PureOps.Ideal.Laws

noncomputable section

namespace Cert.MergeAxes

open Idealize.ShloMosaic Idealize.ShloMosaic.ValueIdx

variable {α : Type}

/-- [a, b, c] viewed as [n, c]: row r = p * b + q of the matrix is row (p, q) of the array. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- [n, c] viewed as [a, b, c]: row (p, q) of the array is row r = p * b + q of the matrix. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

/-- A matrix [a, b] given a trailing unit axis reads, at (p, q, z), its entry (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) :=
  shapeCast_apply x h _ _ (by
    have hz : z.val = 0 := by omega
    rw [Shape.rowMajor_val_two, Shape.rowMajor_val_three]
    show p.val * b + q.val = (p.val * b + q.val) * 1 + z.val
    rw [hz, Nat.mul_one, Nat.add_zero])

/-- [1, b, c] broadcast along axis 0 reads, at (p, q, k), the entry (0, q, k). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ x h (ix3 p q k) = x (ix3 (0 : Fin 1) q k) :=
  broadcastTo_apply x h _ _ (fun d => match d with
    | ⟨0, _⟩ => by
      show 0 = if (1 : Nat) = 1 then 0 else p.val
      rw [if_pos rfl]
    | ⟨1, _⟩ => by
      show q.val = if b = 1 then 0 else q.val
      by_cases hb : b = 1
      · rw [if_pos hb]; have := q.isLt; omega
      · rw [if_neg hb]
    | ⟨2, _⟩ => by
      show k.val = if c = 1 then 0 else k.val
      by_cases hc : c = 1
      · rw [if_pos hc]; have := k.isLt; omega
      · rw [if_neg hc])

/-- [a, 1, c] broadcast along axis 1 reads, at (p, q, k), the entry (p, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ x h (ix3 p q k) = x (ix3 p (0 : Fin 1) k) :=
  broadcastTo_apply x h _ _ (fun d => match d with
    | ⟨0, _⟩ => by
      show p.val = if a = 1 then 0 else p.val
      by_cases ha : a = 1
      · rw [if_pos ha]; have := p.isLt; omega
      · rw [if_neg ha]
    | ⟨1, _⟩ => by
      show 0 = if (1 : Nat) = 1 then 0 else q.val
      rw [if_pos rfl]
    | ⟨2, _⟩ => by
      show k.val = if c = 1 then 0 else k.val
      by_cases hc : c = 1
      · rw [if_pos hc]; have := k.isLt; omega
      · rw [if_neg hc])

/-- [a, b, 1] broadcast along axis 2 reads, at (p, q, k), the entry (p, q, 0). -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) :=
  broadcastTo_apply x h _ _ (fun d => match d with
    | ⟨0, _⟩ => by
      show p.val = if a = 1 then 0 else p.val
      by_cases ha : a = 1
      · rw [if_pos ha]; have := p.isLt; omega
      · rw [if_neg ha]
    | ⟨1, _⟩ => by
      show q.val = if b = 1 then 0 else q.val
      by_cases hb : b = 1
      · rw [if_pos hb]; have := q.isLt; omega
      · rw [if_neg hb]
    | ⟨2, _⟩ => by
      show 0 = if (1 : Nat) = 1 then 0 else k.val
      rw [if_pos rfl])

/-- Over the kept entry (p, q), the index with coordinate k put back on the reduced last axis is (p, q, k). -/
theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- At the ideal values the sum along the last axis, at (p, q), is the sum of the entries (p, q, k). -/
theorem multiReduction_add_last {a b c : ℕ} {φ : FTy} (X : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ X acc h hφ hacc (ix2 p q) = ∑ k : Fin c, X (ix3 p q k) := by
  refine (Ideal.multiReduction_add_single X acc h hφ hacc (ix2 p q)).trans ?_
  exact Finset.sum_congr rfl fun k _ => congrArg X (lift_last h p q k)

/-- At the ideal values the maximum along the last axis, at (p, q), is the fold of max over the entries (p, q, k) from
    the value of the accumulator's pattern. -/
theorem multiReduction_max_last {a b c : ℕ} {φ : FTy} (X : FVec Ideal ⟨3, ![a, b, c]⟩ φ) (acc : BitVec φ.bits)
    (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ X acc h hφ hacc (ix2 p q)
      = (Finset.univ : Finset (Fin c)).fold max (Ideal.ofBits φ acc) (fun k => X (ix3 p q k)) := by
  refine (Ideal.multiReduction_maximumf_single X acc h hφ hacc (ix2 p q)).trans ?_
  have e : (X ∘ h.lift (ix2 p q))
      = fun k : Fin ((⟨3, ![a, b, c]⟩ : Shape).size 2) => X (ix3 p q (⟨k.val, k.isLt⟩ : Fin c)) :=
    funext fun k => congrArg X (lift_last h p q k)
  rw [e]
  rfl

end Cert.MergeAxes

end
-- ==== Proof.LibAxisFolds.lean ====
/-
  Folds along one axis of a three-axis array, read at an index (program-independent; imports only the library and the
  three-axis reading lemmas beside it).

  A matrix [a, b] given a middle unit axis, [a, 1, b], reads (p, k) at (p, 0, k). Over the kept entry (p, k) of an
  [a, b, c] array reduced along its middle axis, the index with coordinate q put back is (p, q, k). At the ideal values
  a minimum along the middle axis is, at (p, k), the fold of min over the entries (p, q, k) from the accumulator's value;
  the host's one-operand reduce with a maximum body is, along the last axis at (p, q), the fold of max over the entries
  (p, q, k), and along the middle axis at (p, k) the fold of max over the entries (p, q, k), each from the initial
  value's one element.
-/
import Idealize.ShloMosaic.Lib.ValueIdx
import Idealize.ShloMosaic.Lib.Pipeline.Value
import Idealize.ShloMosaic.PureOps.Ideal.Laws
import proofs.«135341_g64312840290704_cont_9to1c4b_346_7_alg».proof.Proof.LibMergeAxes

noncomputable section

namespace Cert.AxisFolds

open Idealize.ShloMosaic Idealize.ShloMosaic.ValueIdx

variable {α : Type}

/-- A matrix [a, b] given a middle unit axis reads, at (p, z, k), its entry (p, k). -/
theorem shapeCast_ab_a1b_apply {a b : ℕ} (x : (⟨2, ![a, b]⟩ : Shape).Idx → α)
    (h : (⟨2, ![a, b]⟩ : Shape).ShapeCasts ⟨3, ![a, 1, b]⟩) (p : Fin a) (z : Fin 1) (k : Fin b) :
    shapeCast ⟨3, ![a, 1, b]⟩ x h (ix3 p z k) = x (ix2 p k) :=
  shapeCast_apply x h _ _ (by
    have hz : z.val = 0 := by omega
    rw [Shape.rowMajor_val_two, Shape.rowMajor_val_three]
    show p.val * b + k.val = (p.val * 1 + z.val) * b + k.val
    rw [hz, Nat.mul_one, Nat.add_zero])

/-- Over the kept entry (p, k), the index with coordinate q put back on the reduced middle axis is (p, q, k). -/
theorem lift_mid {a b c : ℕ} (h : (⟨3, ![a, b, c]⟩ : Shape).Reduces [1] ⟨2, ![a, c]⟩) (p : Fin a) (k : Fin c)
    (q : Fin ((⟨3, ![a, b, c]⟩ : Shape).size 1)) : h.lift (ix2 p k) q = ix3 p (⟨q.val, q.isLt⟩ : Fin b) k := by
  funext d; apply Fin.ext
  fin_cases d <;> rfl

/-- At the ideal values the minimum along the middle axis, at (p, k), is the fold of min over the entries (p, q, k)
    from the value of the accumulator's pattern. -/
theorem multiReduction_min_mid {a b c : ℕ} {φ : FTy} (X : FVec Ideal ⟨3, ![a, b, c]⟩ φ) (acc : BitVec φ.bits)
    (h : (⟨3, ![a, b, c]⟩ : Shape).Reduces [1] ⟨2, ![a, c]⟩) (hφ : FKind.Formats φ)
    (hacc : acc = FKind.minimumf.neutral φ hφ) (p : Fin a) (k : Fin c) :
    multiReduction .minimumf [1] ⟨2, ![a, c]⟩ X acc h hφ hacc (ix2 p k)
      = (Finset.univ : Finset (Fin b)).fold min (Ideal.ofBits φ acc) (fun q => X (ix3 p q k)) := by
  rw [multiReduction_minimumf_eq_fold]
  refine (h.fold_filter_drop_single _ _ X (ix2 p k)).trans ?_
  have e : (X ∘ h.lift (ix2 p k))
      = fun q : Fin ((⟨3, ![a, b, c]⟩ : Shape).size 1) => X (ix3 p (⟨q.val, q.isLt⟩ : Fin b) k) :=
    funext fun q => congrArg X (lift_mid h p k q)
  rw [e]
  rfl

/-- At the ideal values the host's reduce with a maximum body along the last axis, at (p, q), is the fold of max over
    the entries (p, q, k) from the initial value's element. -/
theorem hostReduce_max_last {a b c : ℕ} {φ : FTy} {u : Shape} (x : (⟨3, ![a, b, c]⟩ : Shape).Idx → Ideal φ)
    (init : u.Idx → Ideal φ) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduce (FloatOps.maximumf (F := Ideal) (φ := φ)) x init h' hu (ix2 p q)
      = (Finset.univ : Finset (Fin c)).fold max (init (Shape.Idx.first hu)) (fun k => x (ix3 p q k)) := by
  refine (Host.reduce_eq_fold_single _ x init h' h hu (ix2 p q)).trans ?_
  have e : (x ∘ h.lift (ix2 p q))
      = fun k : Fin ((⟨3, ![a, b, c]⟩ : Shape).size 2) => x (ix3 p q (⟨k.val, k.isLt⟩ : Fin c)) :=
    funext fun k => congrArg x (Cert.MergeAxes.lift_last h p q k)
  rw [e]
  rfl

/-- … and along the middle axis, at (p, k), the fold of max over the entries (p, q, k). -/
theorem hostReduce_max_mid {a b c : ℕ} {φ : FTy} {u : Shape} (x : (⟨3, ![a, b, c]⟩ : Shape).Idx → Ideal φ)
    (init : u.Idx → Ideal φ) (h' : (⟨3, ![a, b, c]⟩ : Shape).ReducesTo [1] ⟨2, ![a, c]⟩)
    (h : (⟨3, ![a, b, c]⟩ : Shape).Reduces [1] ⟨2, ![a, c]⟩) (hu : 0 < u.numel) (p : Fin a) (k : Fin c) :
    Host.reduce (FloatOps.maximumf (F := Ideal) (φ := φ)) x init h' hu (ix2 p k)
      = (Finset.univ : Finset (Fin b)).fold max (init (Shape.Idx.first hu)) (fun q => x (ix3 p q k)) := by
  refine (Host.reduce_eq_fold_single _ x init h' h hu (ix2 p k)).trans ?_
  have e : (x ∘ h.lift (ix2 p k))
      = fun q : Fin ((⟨3, ![a, b, c]⟩ : Shape).size 1) => x (ix3 p (⟨q.val, q.isLt⟩ : Fin b) k) :=
    funext fun q => congrArg x (lift_mid h p k q)
  rw [e]
  rfl

end Cert.AxisFolds

end
-- ==== Proof.KernelBlock.lean ====
/-
  One block of the kernel, read at an entry.

  At a grid point the body holds a block of eight batch rows: logits P0 of shape [8, 8192] and draws P1 of shape
  [8, 32, 8192]. The entry (p, d) of what it stores — the generated index-by-index form of the stored block — depends on
  row p alone: it is e_d over the minimum, along the 32 samples, of q_{k,d} · s_k, where the sum s_k runs over the 8192
  classes of row p and sample k. So it is the row function of the law module applied to row p of the two blocks.
  The steps are layout readings: the exponentials [8, 8192] given a unit middle axis and spread over the samples read
  (p, k, d') at (p, d'); the row sums [8, 32] given a unit last axis and spread over the classes read (p, k, d) at (p, k);
  the sum along the last axis and the minimum along the middle axis are folds over that axis's coordinates.
-/
import proofs.«135341_g64312840290704_cont_9to1c4b_346_7_alg».proof.Proof.Gen.KernelIdeal.Value
import proofs.«135341_g64312840290704_cont_9to1c4b_346_7_alg».proof.Proof.GumbelLaw
import proofs.«135341_g64312840290704_cont_9to1c4b_346_7_alg».proof.Proof.LibMergeAxes
import proofs.«135341_g64312840290704_cont_9to1c4b_346_7_alg».proof.Proof.LibAxisFolds

noncomputable section

namespace Cert.KernelIdeal.BlockRow

open Cert.KernelIdeal Cert.KernelIdeal.Gen Idealize.ShloMosaic Idealize.ShloMosaic.ValueIdx

/-- The exponentials spread over the samples, times a [8, 32, 8192] factor, at (p, k, d'). -/
theorem spread_classes_mul (V6 : FVec Ideal S8x8192 .f32) (V9 : FVec Ideal S8x32x8192 .f32)
    (h1 : S8x8192.ShapeCasts S8x1x8192) (h2 : S8x1x8192.Broadcasts S8x32x8192) (p : Fin 8) (k : Fin 32) (d' : Fin 8192) :
    (mulf (broadcastTo S8x32x8192 (shapeCast S8x1x8192 V6 h1) h2) V9) (ix3 p k d') = V6 (ix2 p d') * V9 (ix3 p k d') := by
  show (broadcastTo S8x32x8192 (shapeCast S8x1x8192 V6 h1) h2) (ix3 p k d') * V9 (ix3 p k d') = _
  rw [Cert.MergeAxes.broadcastTo_a1c_abc_apply, Cert.AxisFolds.shapeCast_ab_a1b_apply]

/-- The row sums spread over the classes, at (p, k, d). -/
theorem spread_sums (V12 : FVec Ideal S8x32 .f32) (h3 : S8x32.ShapeCasts S8x32x1) (h4 : S8x32x1.Broadcasts S8x32x8192)
    (p : Fin 8) (k : Fin 32) (d : Fin 8192) :
    (broadcastTo S8x32x8192 (shapeCast S8x32x1 V12 h3) h4) (ix3 p k d) = V12 (ix2 p k) := by
  rw [Cert.MergeAxes.broadcastTo_ab1_abc_apply, Cert.MergeAxes.shapeCast_ab_ab1_apply]

/-- Entry (p, d) of the stored block is the kernel's row function of row p of the two input blocks. -/
theorem stored_apply (P0 : Vec Ideal S8x8192 .f32) (P1 : Vec Ideal S8x32x8192 .f32) (p : Fin 8) (d : Fin 8192) :
    Cert.KernelIdeal.Value.E2 (F := Ideal) P0 P1 (ix2 p d)
      = Cert.GumbelLaw.kernelRow (fun d' => P0 (ix2 p d')) (fun k d' => P1 (ix3 p k d')) d := by
  have i0 : Cert.KernelIdeal.Value.ix2_0 (ix2 p d) = ix2 p d :=
    funext fun a => Fin.ext (by match a with | ⟨0, _⟩ => rfl | ⟨1, _⟩ => rfl)
  have i1 : Cert.KernelIdeal.Value.ix2_1 (ix2 p d) = ix2 p d :=
    funext fun a => Fin.ext (by match a with | ⟨0, _⟩ => rfl | ⟨1, _⟩ => rfl)
  unfold Cert.GumbelLaw.kernelRow
  refine congrArg₂ Ideal.div ?_ ?_
  · show Ideal.exp (Ideal.ofBits .f32 0x40000000#32 * P0 (Cert.KernelIdeal.Value.ix2_0 (ix2 p d))) = _
    rw [i0]
  · rw [i1]
    refine (Cert.AxisFolds.multiReduction_min_mid _ _ _ _ _ p d).trans ?_
    refine congrArg (fun f => (Finset.univ : Finset (Fin 32)).fold min (Ideal.ofBits .f32 0x7F800000#32) f)
      (funext fun k => ?_)
    show (Ideal.log (P1 (ix3 p k d)) * Ideal.log (P1 (ix3 p k d)))
        * (broadcastTo S8x32x8192 (shapeCast S8x32x1 _ _) _) (ix3 p k d) = _
    rw [spread_sums]
    refine (congrArg (_ * ·) (Cert.MergeAxes.multiReduction_add_last _ _ _ _ _ p k)).trans ?_
    refine congrArg (_ * ·) (Finset.sum_congr rfl fun d' _ => ?_)
    rw [spread_classes_mul]
    rfl

end Cert.KernelIdeal.BlockRow

end
-- ==== Proof.KernelArray.lean ====
/-
  From the kernel's blocks to its whole result.

  The grid has eight points; point t stages rows 8t … 8t+7 of the logits [64, 8192] and of the draws [64, 32, 8192], and
  writes back rows 8t … 8t+7 of the result [64, 8192]. Entry (p, d) of what point t stores is the kernel's row function
  of row p of the two staged blocks, and row p of the blocks at point t is row 8t + p of the arrays; so what point t writes
  back is block t of ONE whole-array function: entry (b, d) is the row function of row b of the two argument arrays. The
  eight blocks tile the result (row b lies in the block of point b / 8), so after the run the result array is that
  function.
-/
import proofs.«135341_g64312840290704_cont_9to1c4b_346_7_alg».proof.Proof.Gen.KernelIdeal.Value
import proofs.«135341_g64312840290704_cont_9to1c4b_346_7_alg».proof.Proof.KernelBlock
import proofs.«135341_g64312840290704_cont_9to1c4b_346_7_alg».proof.Proof.GumbelLaw

noncomputable section

namespace Cert.KernelIdeal.WholeArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The whole result as a function of the two argument arrays: entry (b, d) is the kernel's row function of row b. -/
def rows (a0 : S64x8192.Idx → Elt Ideal .f32) (a1 : S64x32x8192.Idx → Elt Ideal .f32) : S64x8192.Idx → Elt Ideal .f32 :=
  fun i => Cert.GumbelLaw.kernelRow (fun d' => a0 (ix2 (⟨(i 0).val, (i 0).isLt⟩ : Fin 64) d'))
    (fun k d' => a1 (ix3 (⟨(i 0).val, (i 0).isLt⟩ : Fin 64) k d')) (⟨(i 1).val, (i 1).isLt⟩ : Fin 8192)

theorem origin2 : (![0, 0] : Fin 2 → Nat) = fun _ => 0 := funext fun a => by fin_cases a <;> rfl
theorem origin3 : (![0, 0, 0] : Fin 3 → Nat) = fun _ => 0 := funext fun a => by fin_cases a <;> rfl

/-- What the body stores at entry y, from blocks whose row (y 0) is row (i 0) of the arrays, is entry i of the whole
    function (the class coordinates equal). -/
theorem stored_entry (x0 : Vec Ideal S8x8192 .f32) (x1 : Vec Ideal S8x32x8192 .f32)
    (a0 : S64x8192.Idx → Elt Ideal .f32) (a1 : S64x32x8192.Idx → Elt Ideal .f32) (y : S8x8192.Idx) (i : S64x8192.Idx)
    (h0 : ∀ d' : Fin 8192, x0 (ix2 (⟨(y 0).val, (y 0).isLt⟩ : Fin 8) d')
      = a0 (ix2 (⟨(i 0).val, (i 0).isLt⟩ : Fin 64) d'))
    (h1 : ∀ (k : Fin 32) (d' : Fin 8192), x1 (ix3 (⟨(y 0).val, (y 0).isLt⟩ : Fin 8) k d')
      = a1 (ix3 (⟨(i 0).val, (i 0).isLt⟩ : Fin 64) k d'))
    (hd : (y 1).val = (i 1).val) :
    out0_2 x0 x1 y = rows a0 a1 i := by
  unfold out0_2
  rw [Cert.KernelIdeal.Value.canon2_eq, View.ld_unit_zero (S := S8x8192) origin2,
    View.ld_unit_zero (S := S8x32x8192) origin3]
  have ey : y = ix2 (⟨(y 0).val, (y 0).isLt⟩ : Fin 8) (⟨(y 1).val, (y 1).isLt⟩ : Fin 8192) :=
    funext fun a => Fin.ext (by match a with | ⟨0, _⟩ => rfl | ⟨1, _⟩ => rfl)
  refine (congrArg (Cert.KernelIdeal.Value.E2 (F := Ideal) x0 x1) ey).trans ?_
  rw [Cert.KernelIdeal.BlockRow.stored_apply]
  unfold rows
  have ed : (⟨(y 1).val, (y 1).isLt⟩ : Fin 8192) = ⟨(i 1).val, (i 1).isLt⟩ := Fin.ext hd
  rw [ed, show (fun d' : Fin 8192 => x0 (ix2 (⟨(y 0).val, (y 0).isLt⟩ : Fin 8) d'))
        = fun d' => a0 (ix2 (⟨(i 0).val, (i 0).isLt⟩ : Fin 64) d') from funext h0,
    show (fun (k : Fin 32) (d' : Fin 8192) => x1 (ix3 (⟨(y 0).val, (y 0).isLt⟩ : Fin 8) k d'))
        = fun k d' => a1 (ix3 (⟨(i 0).val, (i 0).isLt⟩ : Fin 64) k d') from funext fun k => funext (h1 k)]

/-- The printed index maps over the grid: the two input windows move with the output's rows and sit at 0 on their other
    axes; the output's block column is 0 and its block row at most 7. -/
theorem idx_facts : ∀ t : Fin cfg0.N,
    win0_0.index t (0 : Fin 2) = win0_2.index t (0 : Fin 2) ∧ win0_0.index t (1 : Fin 2) = 0
    ∧ win0_1.index t (0 : Fin 3) = win0_2.index t (0 : Fin 2) ∧ win0_1.index t (1 : Fin 3) = 0
    ∧ win0_1.index t (2 : Fin 3) = 0 ∧ win0_2.index t (1 : Fin 2) = 0 ∧ win0_2.index t (0 : Fin 2) ≤ 7 :=
  (by decide +kernel : ∀ t : Fin grid0.N, _)

/-- Every block row is some point's. -/
theorem idx_onto : ∀ q : Fin 8, ∃ t : Fin cfg0.N, win0_2.index t = ![q.val, 0] :=
  (by decide +kernel : ∀ q : Fin 8, ∃ t : Fin grid0.N, win0_2.index t = ![q.val, 0])

/-- What point t writes back is block t of the whole function of the argument arrays as the region finds them. -/
theorem flushed_eq (c : Dev nD) (t : Fin cfg0.N) :
    (dats m 0 c).flushed 2 t
      = ((cfg0.win 2).blk t).view.read (Elt Ideal) (rows (V m c main_arg0) (V m c main_arg1)) := by
  rw [Cert.KernelIdeal.Value.flushed2]
  obtain ⟨e0, e1, e2, e3, e4, e5, e6⟩ := idx_facts t
  funext y
  show out0_2 (iblk m c 0 t) (iblk m c 1 t) y
      = rows (V m c main_arg0) (V m c main_arg1) (((cfg0.win 2).blk t).view.emb y)
  have hy0 : (y 0).val < 8 := (y 0).isLt
  have hy1 : (y 1).val < 8192 := (y 1).isLt
  refine stored_entry (iblk m c 0 t) (iblk m c 1 t) (V m c main_arg0) (V m c main_arg1) y
    (((cfg0.win 2).blk t).view.emb y) (fun d' => ?_) (fun k d' => ?_) ?_
  · show V m c main_arg0 (((cfg0.win 0).blk t).view.emb (ix2 (⟨(y 0).val, (y 0).isLt⟩ : Fin 8) d')) = _
    refine congrArg (V m c main_arg0) (funext fun a => Fin.ext ?_)
    match a with
    | ⟨0, _⟩ =>
      show win0_0.index t (0 : Fin 2) * 8 + 1 * (y 0).val = win0_2.index t (0 : Fin 2) * 8 + 1 * (y 0).val
      omega
    | ⟨1, _⟩ =>
      show win0_0.index t (1 : Fin 2) * 8192 + 1 * d'.val = d'.val
      omega
  · show V m c main_arg1 (((cfg0.win 1).blk t).view.emb (ix3 (⟨(y 0).val, (y 0).isLt⟩ : Fin 8) k d')) = _
    refine congrArg (V m c main_arg1) (funext fun a => Fin.ext ?_)
    match a with
    | ⟨0, _⟩ =>
      show win0_1.index t (0 : Fin 3) * 8 + 1 * (y 0).val = win0_2.index t (0 : Fin 2) * 8 + 1 * (y 0).val
      omega
    | ⟨1, _⟩ =>
      show win0_1.index t (1 : Fin 3) * 32 + 1 * k.val = k.val
      omega
    | ⟨2, _⟩ =>
      show win0_1.index t (2 : Fin 3) * 8192 + 1 * d'.val = d'.val
      omega
  · show (y 1).val = win0_2.index t (1 : Fin 2) * 8192 + 1 * (y 1).val
    omega

/-- An index of the result is in point t's block iff each coordinate is in the block's range on its axis. -/
theorem mem_blk (t : Fin cfg0.N) (i : S64x8192.Idx) :
    i ∈ ((cfg0.win 2).blk t).view.set ↔ ∀ a : Fin 2, win0_2.index t a * S8x8192.size a ≤ (i a).val
      ∧ (i a).val < win0_2.index t a * S8x8192.size a + S8x8192.size a := by
  show i ∈ ((View.whole main_v0).slice (win0_2.rect t)).set ↔ _
  rw [View.set_slice_whole, Rect.mem_set_unit]
  exact Iff.rfl

/-- The eight blocks cover the result: row b lies in the block of point b / 8. -/
theorem cover (i : S64x8192.Idx) :
    ∃ t : Fin cfg0.N, (cfg0.win 2).flush t = true ∧ i ∈ ((cfg0.win 2).blk t).view.set := by
  have hi0 : (i 0).val < 64 := (i 0).isLt
  have hi1 : (i 1).val < 8192 := (i 1).isLt
  obtain ⟨t, ht⟩ := idx_onto ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 8 ≤ (i 0).val ∧ (i 0).val < win0_2.index t (0 : Fin 2) * 8 + 8
    omega
  | ⟨1, _⟩ =>
    show win0_2.index t (1 : Fin 2) * 8192 ≤ (i 1).val ∧ (i 1).val < win0_2.index t (1 : Fin 2) * 8192 + 8192
    omega

/-- The result array after the run is the whole function of the argument arrays. -/
theorem final (c : Dev nD) :
    (dats m 0 c).arrAt 2 cfg0.N = rows (m ((c : Thread nD τ).loc main_arg0)) (m ((c : Thread nD τ).loc main_arg1)) :=
  (dats m 0 c).arrAt_eq_of_cover 2 _ (fun t _ => flushed_eq m c t) cover

/-- The kernel's run with its result named: the whole function of the arguments, the arguments unchanged. -/
theorem run : θ_run defs (onTc (τ := τ) (main (F := Ideal))) ⟨m, fun _ => 0, ρ⟩ fun r => ∀ c : Dev nD,
      r.2.mem ((c : Thread nD τ).loc main_v0)
        = rows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.WholeArray

end
-- ==== Proof.ReferenceEntry.lean ====
/-
  The reference's result, read at an entry.

  Entry (b, d) of the reference's result depends on batch row b alone. Reading its operations one at a time: the noisy
  logits at (b, k, d) are (-log(-log u_{b,k,d}) + l_{b,d}) / (1/2), the logits spread over the samples; the shift at
  (b, k, ·) is the maximum along the classes of the noisy logits of (b, k), met once more with -∞; the softmax's
  denominator at (b, k, ·) is the sum along the classes of the shifted exponentials from 0; and the result is the maximum
  along the samples of numerator over denominator. So it is the reference's row function of the law module applied to
  row b of the logits and of the draws. The two maxima are the host's reduces along the last and the middle axis, read
  as folds over that axis's coordinates.
-/
import proofs.«135341_g64312840290704_cont_9to1c4b_346_7_alg».proof.Proof.Gen.ReferenceIdeal.Read
import proofs.«135341_g64312840290704_cont_9to1c4b_346_7_alg».proof.Proof.GumbelLaw
import proofs.«135341_g64312840290704_cont_9to1c4b_346_7_alg».proof.Proof.LibAxisFolds

noncomputable section

namespace Cert.ReferenceIdeal.RowRead

open Cert.ReferenceIdeal Cert.ReferenceIdeal.Gen Cert.ReferenceIdeal.Read Idealize.ShloMosaic Idealize.ShloMosaic.ValueIdx
open Cert.GumbelLaw

variable (x0 : (⟨S64x8192, .f32⟩ : BufTy).Contents (Elt Ideal)) (x1 : (⟨S64x32x8192, .f32⟩ : BufTy).Contents (Elt Ideal))

/-- The noisy logit at (b, k, d). -/
theorem noisy_apply (b : Fin 64) (k : Fin 32) (d : Fin 8192) :
    val_main_v8 (F := Ideal) x0 x1 (ix3 b k d)
      = noisy (fun d' => x0 (ix2 b d')) (fun k d' => x1 (ix3 b k d')) k d := by
  have e : idx_main_v4 (idx_main_v5 (ix3 b k d)) = ix2 b d :=
    funext fun a => Fin.ext (by match a with | ⟨0, _⟩ => rfl | ⟨1, _⟩ => rfl)
  rw [val_main_v8_apply, val_main_v6_apply, val_main_v3_apply, val_main_v2_apply, val_main_v1_apply, val_main_v0_apply,
    val_main_v5_apply, val_main_v4_apply, e, val_main_v7_apply, val_main_cst_apply]
  rfl

/-- The shift at (b, k, d): the greatest noisy logit of (b, k). -/
theorem shift_apply (b : Fin 64) (k : Fin 32) (d : Fin 8192) :
    val_main_v13 (F := Ideal) x0 x1 (ix3 b k d)
      = rowMax (fun d' => x0 (ix2 b d')) (fun k d' => x1 (ix3 b k d')) k := by
  have e : idx_main_v12 (idx_main_v13 (ix3 b k d)) = ix2 b k :=
    funext fun a => Fin.ext (by match a with | ⟨0, _⟩ => rfl | ⟨1, _⟩ => rfl)
  rw [val_main_v13_apply, val_main_v12_apply, e, val_main_v11_apply, val_main_v10_apply, val_main_cst_1_apply]
  unfold rowMax
  refine congrArg (max (Ideal.ofBits .f32 0xFF800000#32)) ?_
  unfold val_main_v9
  refine (Cert.AxisFolds.hostReduce_max_last _ _ _ (by decide) _ b k).trans ?_
  exact congrArg (fun f => (Finset.univ : Finset (Fin 8192)).fold max (Ideal.ofBits .f32 0xFF800000#32) f)
    (funext fun d' => noisy_apply x0 x1 b k d')

/-- The shifted exponential at (b, k, d). -/
theorem shifted_exp_apply (b : Fin 64) (k : Fin 32) (d : Fin 8192) :
    val_main_v15 (F := Ideal) x0 x1 (ix3 b k d)
      = Ideal.exp (noisy (fun d' => x0 (ix2 b d')) (fun k d' => x1 (ix3 b k d')) k d
          - rowMax (fun d' => x0 (ix2 b d')) (fun k d' => x1 (ix3 b k d')) k) := by
  rw [val_main_v15_apply, val_main_v14_apply, noisy_apply, shift_apply]
  rfl

/-- The softmax's denominator at (b, k, d): the sum of the shifted exponentials of (b, k), from 0. -/
theorem denominator_apply (b : Fin 64) (k : Fin 32) (d : Fin 8192) :
    val_main_v18 (F := Ideal) x0 x1 (ix3 b k d)
      = Ideal.ofBits .f32 0x00000000#32
        + ∑ d' : Fin 8192, Ideal.exp (noisy (fun d' => x0 (ix2 b d')) (fun k d' => x1 (ix3 b k d')) k d'
          - rowMax (fun d' => x0 (ix2 b d')) (fun k d' => x1 (ix3 b k d')) k) := by
  have e : idx_main_v17 (idx_main_v18 (ix3 b k d)) = ix2 b k :=
    funext fun a => Fin.ext (by match a with | ⟨0, _⟩ => rfl | ⟨1, _⟩ => rfl)
  have e16 : ∀ d' : Fin 8192, idx_main_v16 (ix2 b k) d' = ix3 b k d' := fun d' =>
    funext fun a => Fin.ext (by match a with | ⟨0, _⟩ => rfl | ⟨1, _⟩ => rfl | ⟨2, _⟩ => rfl)
  rw [val_main_v18_apply, val_main_v17_apply, e, val_main_v16_apply]
  refine congrArg₂ (· + ·) rfl (Finset.sum_congr rfl fun d' _ => ?_)
  rw [e16 d', shifted_exp_apply]

/-- Entry (b, d) of the reference's result is its row function of row b of the logits and of the draws. -/
theorem result_apply (b : Fin 64) (d : Fin 8192) :
    val_main_v20 (F := Ideal) x0 x1 (ix2 b d)
      = refRow (fun d' => x0 (ix2 b d')) (fun k d' => x1 (ix3 b k d')) d := by
  unfold val_main_v20 refRow
  refine (Cert.AxisFolds.hostReduce_max_mid _ _ _ (by decide) _ b d).trans ?_
  refine congrArg (fun f => (Finset.univ : Finset (Fin 32)).fold max (Ideal.ofBits .f32 0xFF800000#32) f)
    (funext fun k => ?_)
  rw [val_main_v19_apply, shifted_exp_apply, denominator_apply]
  rfl

end Cert.ReferenceIdeal.RowRead

end
-- ==== Proof.lean ====
/-
  The kernel computes, per batch row, e_d / min_k (q_{k,d} · s_k) with q = (log u)², e = exp(2 l), s_k = Σ_d e_d / q_{k,d};
  the reference computes max_k softmax_d((-log(-log u_{k,d}) + l_d) / (1/2)). The precondition — every logit finite,
  every draw finite and strictly between 0 and 1 — makes every logit a real number and puts every draw where both of the
  reference's logarithms are taken of a positive number (Proof/Domain.lean). On that domain the two are one extended real,
  entry by entry: exp of the noisy logit is e_d / q_{k,d}, the softmax's shift cancels, and the maximum of e_d / x over the
  samples sits where x is least (Proof/GumbelLaw.lean). The kernel's eight blocks of eight rows tile the result, each
  entry the row function of its own row of the arguments (Proof/KernelBlock.lean, Proof/KernelArray.lean); the reference's
  result read one operation at a time is the reference's row function of the same row (Proof/ReferenceEntry.lean).
  The three frames are the generated ones (the reference's is its generated run with the result dropped); the
  idealization rewrote no operation, so there is nothing to preserve.
-/
import proofs.«135341_g64312840290704_cont_9to1c4b_346_7_alg».proof.Defs
import proofs.«135341_g64312840290704_cont_9to1c4b_346_7_alg».proof.Proof.Gen.Kernel
import proofs.«135341_g64312840290704_cont_9to1c4b_346_7_alg».proof.Proof.Gen.Kernel.Frame
import proofs.«135341_g64312840290704_cont_9to1c4b_346_7_alg».proof.Proof.Gen.KernelIdeal
import proofs.«135341_g64312840290704_cont_9to1c4b_346_7_alg».proof.Proof.Gen.KernelIdeal.Frame
import proofs.«135341_g64312840290704_cont_9to1c4b_346_7_alg».proof.Proof.Gen.KernelIdeal.Value
import proofs.«135341_g64312840290704_cont_9to1c4b_346_7_alg».proof.Proof.Gen.ReferenceIdeal
import proofs.«135341_g64312840290704_cont_9to1c4b_346_7_alg».proof.Proof.Gen.ReferenceIdeal.Run
import proofs.«135341_g64312840290704_cont_9to1c4b_346_7_alg».proof.Proof.Gen.ReferenceIdeal.Read
import proofs.«135341_g64312840290704_cont_9to1c4b_346_7_alg».proof.Proof.Gen.Pre_finite_inputs
import proofs.«135341_g64312840290704_cont_9to1c4b_346_7_alg».proof.Proof.GumbelLaw
import proofs.«135341_g64312840290704_cont_9to1c4b_346_7_alg».proof.Proof.Domain
import proofs.«135341_g64312840290704_cont_9to1c4b_346_7_alg».proof.Proof.KernelArray
import proofs.«135341_g64312840290704_cont_9to1c4b_346_7_alg».proof.Proof.ReferenceEntry
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition the reference's result array is the kernel's whole function of the same arguments: at entry
    (b, d) both are row functions of row b, of real logits and of real draws strictly between 0 and 1, and the law joins
    them. -/
theorem result_eq (a0 : FVec Ideal Cert.Pre_finite_inputs.S64x8192 .f32)
    (a1 : FVec Ideal Cert.Pre_finite_inputs.S64x32x8192 .f32)
    (hpre : Cert.Pre_finite_inputs.fn (F := Ideal) a0 a1 = fun _ => 1#1) :
    Cert.ReferenceIdeal.Read.val_main_v20 (F := Ideal) a0 a1 = Cert.KernelIdeal.WholeArray.rows a0 a1 := by
  obtain ⟨hl, hu⟩ := Cert.Domain.of_pre a0 a1 hpre
  choose l hl using hl
  choose u hu using hu
  funext i
  obtain ⟨b, d, rfl⟩ : ∃ (b : Fin 64) (d : Fin 8192), i = ValueIdx.ix2 b d := ⟨i 0, i 1, ValueIdx.eq_ix2 i⟩
  rw [Cert.ReferenceIdeal.RowRead.result_apply]
  show Cert.GumbelLaw.refRow _ _ d
    = Cert.GumbelLaw.kernelRow (fun d' => a0 (ValueIdx.ix2 b d')) (fun k d' => a1 (ValueIdx.ix3 b k d')) d
  have e0 : (fun d' : Fin 8192 => a0 (ValueIdx.ix2 b d')) = fun d' => ((l (ValueIdx.ix2 b d') : ℝ) : EReal) :=
    funext fun d' => hl _
  have e1 : (fun (k : Fin 32) (d' : Fin 8192) => a1 (ValueIdx.ix3 b k d'))
      = fun k d' => ((u (ValueIdx.ix3 b k d') : ℝ) : EReal) := funext fun k => funext fun d' => (hu _).1
  rw [e0, e1]
  exact (Cert.GumbelLaw.kernelRow_eq_refRow (fun d' => l (ValueIdx.ix2 b d')) (fun k d' => u (ValueIdx.ix3 b k d'))
    (fun k d' => (hu _).2) d).symm

/-- Both idealized programs run; the kernel's result is its whole function of the arguments, and the reference's result,
    from arguments that agree, is the same array. -/
theorem algebraic : Cert.algebraic_KernelIdeal_ReferenceIdeal := by
  intro m ρ m' ρ' hpre hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v20_eq]
  exact result_eq _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
